-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x625000 32) (main_arg2 : FVec F S128x128 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 36
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S_, .i32⟩
  | .hbm, ⟨10, _⟩ => ⟨S625000, .i32⟩
  | .hbm, ⟨11, _⟩ => ⟨S625000, .i1⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S625000, .i32⟩
  | .hbm, ⟨16, _⟩ => ⟨S625000x1, .i32⟩
  | .hbm, ⟨17, _⟩ => ⟨S625000x128, .f32⟩
  | .hbm, ⟨18, _⟩ => ⟨S_, .f32⟩
  | .hbm, ⟨19, _⟩ => ⟨S100000x128, .f32⟩
  | .hbm, ⟨20, _⟩ => ⟨S625000x1, .i32⟩
  | .hbm, ⟨21, _⟩ => ⟨S100000x128, .f32⟩
  | .hbm, ⟨22, _⟩ => ⟨S_, .f32⟩
  | .hbm, ⟨23, _⟩ => ⟨S625000, .f32⟩
  | .hbm, ⟨24, _⟩ => ⟨S_, .f32⟩
  | .hbm, ⟨25, _⟩ => ⟨S100000, .f32⟩
  | .hbm, ⟨26, _⟩ => ⟨S625000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S_, .i32⟩
  | .hbm, ⟨10, _⟩ => ⟨S625000, .i32⟩
  | .hbm, ⟨11, _⟩ => ⟨S625000, .i1⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S625000, .i32⟩
  | .hbm, ⟨16, _⟩ => ⟨S625000x1, .i32⟩
  | .hbm, ⟨17, _⟩ => ⟨S625000x128, .f32⟩
  | .hbm, ⟨18, _⟩ => ⟨S_, .f32⟩
  | .hbm, ⟨19, _⟩ => ⟨S100000x128, .f32⟩
  | .hbm, ⟨20, _⟩ => ⟨S625000x1, .i32⟩
  | .hbm, ⟨21, _⟩ => ⟨S100000x128, .f32⟩
  | .hbm, ⟨22, _⟩ => ⟨S_, .f32⟩
  | .hbm, ⟨23, _⟩ => ⟨S625000, .f32⟩
  | .hbm, ⟨24, _⟩ => ⟨S_, .f32⟩
  | .hbm, ⟨25, _⟩ => ⟨S100000, .f32⟩
  | .hbm, ⟨26, _⟩ => ⟨S625000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageSpec.lean ====
/-
  One layer of mean-aggregating graph convolution followed by a rectifier, as ONE function of its arrays, index by
  index over the extended reals.  For a node `r` and an output feature `q`

      layer mean x wl wr b (r, q) = max ( Σ_k mean(r, k) · wl(q, k)  +  Σ_k x(r, k) · wr(q, k)  +  b(q) , 0 ),

  where `mean` is the array of neighbourhood means (whatever computed it), `x` the node features, `wl` and `wr` the two
  weight matrices (both used transposed: the sums run over their SECOND axis) and `b` the bias.  Both programs of this
  certificate compute exactly this function: the kernel tile by tile of 4000 nodes with two matrix products into a
  zero accumulator, the reference by two whole matrix products; no law of real arithmetic beyond `0 + s = s` separates
  the two, so nothing here needs the inputs to be finite.
-/
import Idealize.ShloMosaic.PureOps.Ideal
import Idealize.ShloMosaic.Lib.ValueIdx

noncomputable section

open scoped BigOperators

namespace Cert.Sage

open Idealize.ShloMosaic Idealize.ShloMosaic.ValueIdx

/-- The shape of the node arrays: 100000 nodes, 128 features. -/
abbrev Nodes : Shape := ⟨2, ![100000, 128]⟩
/-- The shape of a weight matrix: 128 output features by 128 input features. -/
abbrev Weights : Shape := ⟨2, ![128, 128]⟩

/-- The layer's value at node `r`, output feature `q`: the two products' sums over the 128 input features, the bias,
    and the rectifier. -/
def layerAt (mean x : Nodes.Idx → EReal) (wl wr : Weights.Idx → EReal) (b : Fin 128 → EReal)
    (r : Fin 100000) (q : Fin 128) : EReal :=
  max ((∑ k : Fin 128, mean (ix2 r k) * wl (ix2 q k)) + (∑ k : Fin 128, x (ix2 r k) * wr (ix2 q k)) + b q) 0

/-- The layer as a whole array. -/
def layer (mean x : Nodes.Idx → EReal) (wl wr : Weights.Idx → EReal) (b : Fin 128 → EReal) : Nodes.Idx → EReal :=
  fun i => layerAt mean x wl wr b (i 0) (i 1)

/-- The array read at the index with coordinates `r`, `q`. -/
theorem layer_apply (mean x : Nodes.Idx → EReal) (wl wr : Weights.Idx → EReal) (b : Fin 128 → EReal)
    (r : Fin 100000) (q : Fin 128) : layer mean x wl wr b (ix2 r q) = layerAt mean x wl wr b r q := rfl

end Cert.Sage

end
-- ==== Proof.RefLayer.lean ====
/-
  The reference computes the layer.  Its last stages are two whole matrix products (the array of neighbourhood means
  against the first weight matrix transposed, the node features against the second transposed), their sum, the bias laid
  along every row, and the rectifier `max(·, 0)`.  Read at a node `r` and an output feature `q` each product is the sum over
  the 128 input features `k` of the left operand at `(r, k)` times the weight matrix at `(q, k)` (the transposition swaps the
  weight's coordinates), the bias is the vector's entry `q`, and the rectifier's zero is the extended real `0`: the function
  `Cert.Sage.layer` of the means' array, whatever the earlier stages (a gather, two scatter-additions, a division) make it.
-/
import proofs.«161269_j88364657148502_1_alg».proof.Proof.Gen.ReferenceIdeal.Read
import proofs.«161269_j88364657148502_1_alg».proof.Proof.SageSpec

noncomputable section

open scoped BigOperators

namespace Cert.ReferenceIdeal.RefLayer

open Cert.ReferenceIdeal Cert.ReferenceIdeal.Gen Cert.ReferenceIdeal.Read
open Idealize.ShloMosaic Idealize.ShloMosaic.ValueIdx Cert.Sage

/-- The first product's left operand at `(r, q)`, `k`: row `r`, column `k`. -/
theorem left_mean (r : Fin 100000) (q k : Fin 128) : lidx_main_v24 (ix2 r q) k = ix2 r k :=
  funext fun a => Fin.ext (by match a with | ⟨0, _⟩ => rfl | ⟨1, _⟩ => rfl)

/-- Its right operand is the first weight matrix transposed: read at `(k, q)` it is the matrix at `(q, k)`. -/
theorem right_wl (r : Fin 100000) (q k : Fin 128) : idx_main_v23 (ridx_main_v24 (ix2 r q) k) = ix2 q k :=
  funext fun a => Fin.ext (by match a with | ⟨0, _⟩ => rfl | ⟨1, _⟩ => rfl)

/-- The second product's left operand at `(r, q)`, `k`: row `r`, column `k`. -/
theorem left_x (r : Fin 100000) (q k : Fin 128) : lidx_main_v26 (ix2 r q) k = ix2 r k :=
  funext fun a => Fin.ext (by match a with | ⟨0, _⟩ => rfl | ⟨1, _⟩ => rfl)

/-- Its right operand is the second weight matrix transposed. -/
theorem right_wr (r : Fin 100000) (q k : Fin 128) : idx_main_v25 (ridx_main_v26 (ix2 r q) k) = ix2 q k :=
  funext fun a => Fin.ext (by match a with | ⟨0, _⟩ => rfl | ⟨1, _⟩ => rfl)

/-- The bias laid along every row, read at `(r, q)`, is the vector's entry `q`. -/
theorem bias_idx (r : Fin 100000) (q : Fin 128) : idx_main_v28 (idx_main_v29 (ix2 r q)) = ix1 q :=
  funext fun a => Fin.ext (by match a with | ⟨0, _⟩ => rfl)

/-- The reference's result is the layer of its own array of means, the node features, the two weight matrices and the
    bias, at the ideal values. -/
theorem result_eq_layer (x0 : (⟨S100000x128, .f32⟩ : BufTy).Contents (Elt Ideal)) (x1 : (⟨S2x625000, .i32⟩ : BufTy).Contents (Elt Ideal))
    (x2 x3 : (⟨S128x128, .f32⟩ : BufTy).Contents (Elt Ideal)) (x4 : (⟨S128, .f32⟩ : BufTy).Contents (Elt Ideal)) :
    val_main_v31 (F := Ideal) x0 x1 x2 x3 x4
      = layer (val_main_v22 (F := Ideal) x0 x1) x0 x2 x3 (fun q => x4 (ix1 q)) := by
  funext i
  obtain ⟨r, q, rfl⟩ : ∃ (r : Fin 100000) (q : Fin 128), i = ix2 r q := ⟨i 0, i 1, eq_ix2 i⟩
  rw [layer_apply, val_main_v31_apply, val_main_v30_apply, val_main_v27_apply, val_main_v24_apply, val_main_v26_apply,
    val_main_v29_apply, val_main_v28_apply, val_main_call0_v0_apply, val_main_call0_cst_apply]
  simp only [val_main_v23_apply, val_main_v25_apply, left_mean, right_wl, left_x, right_wr, bias_idx, layerAt,
    Ideal.maximumf_def, Ideal.addf_def, Ideal.ofBits_def, Ideal.ofBits_zero_f32]

end Cert.ReferenceIdeal.RefLayer

end
-- ==== Proof.KernelTile.lean ====
/-
  What the kernel's body stores for one tile of 4000 nodes, read at a row `p` of the tile and an output feature `q`.
  The body loads the tile of neighbourhood means, the tile of node features, the two 128 by 128 weight matrices and
  the bias as a one-row matrix; narrows the four matrices to bf16 (no change at the ideal values); transposes each
  weight matrix; multiplies each tile by its transposed weight matrix into a zero accumulator; adds the two products,
  then the bias row laid along every row of the tile; and takes the maximum with zero.  At `(p, q)` that is

      max ( Σ_k means(p, k) · wl(q, k)  +  Σ_k feats(p, k) · wr(q, k)  +  bias(0, q) , 0 ):

  a product into the zero accumulator is just the sum over the contracted axis, and the transposed weight matrix at
  `(k, q)` is the weight matrix at `(q, k)`.
-/
import proofs.«161269_j88364657148502_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The product's operand indices -/

/-- The left operand's row is the output's row. -/
theorem lhs_row (i : S4000x128.Idx) (s : dot_S4000x128_S128x128_S4000x128_1_0_0_1_n_n.contr.Idx) :
    (dot_S4000x128_S128x128_S4000x128_1_0_0_1_n_n.lhsIdx i s 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- The left operand's column is the contracted coordinate. -/
theorem lhs_col (i : S4000x128.Idx) (s : dot_S4000x128_S128x128_S4000x128_1_0_0_1_n_n.contr.Idx) :
    (dot_S4000x128_S128x128_S4000x128_1_0_0_1_n_n.lhsIdx i s 1).val = (s ⟨0, by decide⟩).val :=
  dot_S4000x128_S128x128_S4000x128_1_0_0_1_n_n.lhsIdx_val_of_single rfl i s

/-- The right operand's row is the contracted coordinate. -/
theorem rhs_row (i : S4000x128.Idx) (s : dot_S4000x128_S128x128_S4000x128_1_0_0_1_n_n.contr.Idx) :
    (dot_S4000x128_S128x128_S4000x128_1_0_0_1_n_n.rhsIdx i s 0).val = (s ⟨0, by decide⟩).val :=
  dot_S4000x128_S128x128_S4000x128_1_0_0_1_n_n.rhsIdx_val_of_single rfl i s

/-- The right operand's column is the output's column. -/
theorem rhs_col (i : S4000x128.Idx) (s : dot_S4000x128_S128x128_S4000x128_1_0_0_1_n_n.contr.Idx) :
    (dot_S4000x128_S128x128_S4000x128_1_0_0_1_n_n.rhsIdx i s 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-! ## A tile times a transposed weight matrix -/

/-- A tile `a` times the transpose of a weight matrix `w`, into the zero accumulator, read at row `p` and output
    feature `q`: the sum over the 128 input features `k` of `a(p, k) · w(q, k)`. -/
theorem tile_product (a : FVec Ideal S4000x128 .bf16) (w : FVec Ideal S128x128 .bf16) (p : Fin 4000) (q : Fin 128) :
    matmul dot_S4000x128_S128x128_S4000x128_1_0_0_1_n_n none a (transpose S128x128 [1, 0] w transposes_S128x128_p1_0_S128x128)
        (constant (F := Ideal) S4000x128 .f32 0x00000000#32) (ix2 p q)
      = ∑ k : Fin 128, a (ix2 p k) * w (ix2 q k) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun b => Fin.ext (by
    match b with
    | ⟨0, _⟩ => exact lhs_row _ _
    | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun b => Fin.ext (by
    match b with
    | ⟨0, _⟩ => exact (rhs_row _ _).trans hk
    | ⟨1, _⟩ => exact rhs_col _ _)
  rw [el, er, transpose_apply [1, 0] w transposes_S128x128_p1_0_S128x128 (ix2 k q) (ix2 q k) (fun b => match b with
    | ⟨0, _⟩ => rfl
    | ⟨1, _⟩ => rfl)]

/-! ## The stored tile at an index -/

/-- The body's one stored value at row `p` of the tile and output feature `q`, from the five loaded blocks. -/
theorem stored_apply (x0 x1 : Vec Ideal S4000x128 .f32) (x2 x3 : Vec Ideal S128x128 .f32) (x4 : Vec Ideal S1x128 .f32)
    (p : Fin 4000) (q : Fin 128) :
    k0_pay1 (F := Ideal) x0 x1 x2 x3 x4 (ix2 p q)
      = max ((∑ k : Fin 128, x0 (ix2 p k) * x2 (ix2 q k)) + (∑ k : Fin 128, x1 (ix2 p k) * x3 (ix2 q k))
          + x4 (ix2 (0 : Fin 1) q)) 0 := by
  unfold k0_pay1
  simp only [maximumf_apply, addf_apply, broadcast_apply, shapeCast_self]
  rw [tile_product, tile_product, broadcastTo_1b_ab_apply]
  simp only [truncf_apply]
  show max _ (Ideal.ofBits .f32 0x00000000#32) = _
  rw [Ideal.ofBits_zero_f32]

end Cert.KernelIdeal.Tile

end
-- ==== Proof.RegionArrays.lean ====
/-
  What the kernel's region finds in the two arrays that host operations write before it.  The array of neighbourhood
  means is made by the same operations, in the same order, as the reference's: the source and target rows of the edge
  list sliced and flattened, negative source indices wrapped, the source nodes' features gathered, the gathered rows
  added into their target nodes, ones added into the target nodes to count them, the counts raised to at least one and
  laid along the features, and the quotient.  So it IS the reference's array of means, as a function of the node
  features and the edge list.  The bias window's array is the bias vector recast as a one-row matrix.
-/
import proofs.«161269_j88364657148502_1_alg».proof.Proof.Gen.KernelIdeal.Frame
import proofs.«161269_j88364657148502_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Region

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The means' array as the region finds it is the reference's stage of that name, of the launch contents of the
    node features and the edge list. -/
theorem means_eq (c : Dev nD) :
    (V m c main_v22 : S100000x128.Idx → EReal)
      = Cert.ReferenceIdeal.Read.val_main_v22 (F := Ideal) (m ((c : Thread nD τ).loc main_arg0)) (m ((c : Thread nD τ).loc main_arg1)) := by
  dsimp only [Gen.V, Gen.hostOps0]
  after_results_simp
  rfl

/-- The bias window's array as the region finds it: the bias vector as a one-row matrix. -/
theorem bias_eq (c : Dev nD) :
    (V m c main_v23 : S1x128.Idx → EReal)
      = shapeCast S1x128 (m ((c : Thread nD τ).loc main_arg4)) shapeCasts_S128_S1x128 := by
  dsimp only [Gen.V, Gen.hostOps0]
  after_results
  rfl

/-- Read at its one row and column `q` it is the bias vector's entry `q`. -/
theorem bias_apply (c : Dev nD) (q : Fin 128) :
    (V m c main_v23 : S1x128.Idx → EReal) (ix2 (0 : Fin 1) q) = (m ((c : Thread nD τ).loc main_arg4) : S128.Idx → EReal) (ix1 q) := by
  rw [bias_eq]
  exact shapeCast_apply _ shapeCasts_S128_S1x128 (ix2 (0 : Fin 1) q) (ix1 q) (by
    rw [Shape.rowMajor_val_two, Shape.rowMajor_val_one]
    show q.val = 0 * 128 + q.val
    omega)

end Cert.KernelIdeal.Region

end
-- ==== Proof.KernelLayer.lean ====
/-
  From tiles to the whole array.  The kernel's grid has 25 points; at point `t` the windows on the means' array, on the
  node features and on the result all stand on rows `4000·t … 4000·t + 3999` (block index `(t, 0)`), and the windows on
  the two weight matrices and on the bias row stand on the whole of their arrays (block index `(0, 0)`).  So what point
  `t` writes back — the stored tile of `KernelTile.lean`, at row `p` and feature `q` — is the layer's value at node
  `4000·t + p`, feature `q`, of the arrays as the region finds them; the 25 tiles cover all 100000 nodes (node `r` is in
  tile `r / 4000`); hence the result array after the run is the layer of those arrays.  The arrays the region finds are
  the arguments as launched, the reference's array of means, and the bias as one row (`RegionArrays.lean`).
-/
import proofs.«161269_j88364657148502_1_alg».proof.Proof.Gen.KernelIdeal.Value
import proofs.«161269_j88364657148502_1_alg».proof.Proof.KernelTile
import proofs.«161269_j88364657148502_1_alg».proof.Proof.RegionArrays
import proofs.«161269_j88364657148502_1_alg».proof.Proof.SageSpec

set_option maxRecDepth 16384

noncomputable section

open scoped BigOperators

namespace Cert.KernelIdeal.Layer

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The layer of the arrays as the region finds them. -/
def found (c : Dev nD) : S100000x128.Idx → EReal :=
  layer (V m c main_v22) (V m c main_arg0) (V m c main_arg2) (V m c main_arg3) (fun q => V m c main_v23 (ix2 (0 : Fin 1) q))

/-! ## Where each window stands at a grid point -/

/-- The printed index maps over the 25 points: the three tiled windows at block `(t, 0)`, the three whole ones at `(0, 0)`. -/
theorem where_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of tile `t` is node `4000·t + p`. -/
def node (t : Fin cfg0.N) (p : Fin 4000) : Fin 100000 :=
  ⟨t.val * 4000 + p.val, by have ht : t.val < 25 := t.isLt; have hp := p.isLt; omega⟩

/-! ### Reading a window's block of ANY array

The lemmas of this part speak of arbitrary arrays of the windows' types, not of the arrays the region finds: where a
block of an array lies is a fact about the window, not about what the array holds. -/

/-- The means' window at point `t`: row `p`, column `k` of its block is the array at node `4000·t + p`, column `k`. -/
theorem means_tile (A : (⟨S100000x128, .f32⟩ : BufTy).Contents (Elt Ideal)) (t : Fin cfg0.N) (p : Fin 4000) (k : Fin 128) :
    ((cfg0.win 0).blk t).view.read (Elt Ideal) A (ix2 p k) = A (ix2 (node t p) k) := by
  obtain ⟨e0, e1, -⟩ := where_at t
  show A (((cfg0.win 0).blk t).view.emb (ix2 p k)) = _
  refine congrArg A (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- The node features' window at point `t`, likewise. -/
theorem feats_tile (A : (⟨S100000x128, .f32⟩ : BufTy).Contents (Elt Ideal)) (t : Fin cfg0.N) (p : Fin 4000) (k : Fin 128) :
    ((cfg0.win 1).blk t).view.read (Elt Ideal) A (ix2 p k) = A (ix2 (node t p) k) := by
  obtain ⟨-, -, e0, e1, -⟩ := where_at t
  show A (((cfg0.win 1).blk t).view.emb (ix2 p k)) = _
  refine congrArg A (funext fun a => Fin.ext ?_)
  match a with
  | ⟨0, _⟩ => show win0_1.index t (0 : Fin 2) * 4000 + 1 * p.val = t.val * 4000 + p.val; rw [e0]; omega
  | ⟨1, _⟩ => show win0_1.index t (1 : Fin 2) * 128 + 1 * k.val = k.val; rw [e1]; omega

/-- The first weight matrix's window at any point shows the whole matrix. -/
theorem wl_block (A : (⟨S128x128, .f32⟩ : BufTy).Contents (Elt Ideal)) (t : Fin cfg0.N) (q k : Fin 128) :
    ((cfg0.win 2).blk t).view.read (Elt Ideal) A (ix2 q k) = A (ix2 q k) := by
  obtain ⟨-, -, -, -, e0, e1, -⟩ := where_at t
  show A (((cfg0.win 2).blk t).view.emb (ix2 q k)) = _
  refine congrArg A (funext fun a => Fin.ext ?_)
  match a with
  | ⟨0, _⟩ => show win0_2.index t (0 : Fin 2) * 128 + 1 * q.val = q.val; rw [e0]; omega
  | ⟨1, _⟩ => show win0_2.index t (1 : Fin 2) * 128 + 1 * k.val = k.val; rw [e1]; omega

/-- The second weight matrix's window at any point shows the whole matrix. -/
theorem wr_block (A : (⟨S128x128, .f32⟩ : BufTy).Contents (Elt Ideal)) (t : Fin cfg0.N) (q k : Fin 128) :
    ((cfg0.win 3).blk t).view.read (Elt Ideal) A (ix2 q k) = A (ix2 q k) := by
  obtain ⟨-, -, -, -, -, -, e0, e1, -⟩ := where_at t
  show A (((cfg0.win 3).blk t).view.emb (ix2 q k)) = _
  refine congrArg A (funext fun a => Fin.ext ?_)
  match a with
  | ⟨0, _⟩ => show win0_3.index t (0 : Fin 2) * 128 + 1 * q.val = q.val; rw [e0]; omega
  | ⟨1, _⟩ => show win0_3.index t (1 : Fin 2) * 128 + 1 * k.val = k.val; rw [e1]; omega

/-- The bias window at any point shows the whole one-row matrix. -/
theorem bias_block (A : (⟨S1x128, .f32⟩ : BufTy).Contents (Elt Ideal)) (t : Fin cfg0.N) (q : Fin 128) :
    ((cfg0.win 4).blk t).view.read (Elt Ideal) A (ix2 (0 : Fin 1) q) = A (ix2 (0 : Fin 1) q) := by
  obtain ⟨-, -, -, -, -, -, -, -, e0, e1, -⟩ := where_at t
  show A (((cfg0.win 4).blk t).view.emb (ix2 (0 : Fin 1) q)) = _
  refine congrArg A (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- Where row `p`, feature `q` of the result's tile at point `t` lies in the result array. -/
theorem result_tile_at (t : Fin cfg0.N) (p : Fin 4000) (q : Fin 128) :
    (((cfg0.win 5).blk t).view.emb (ix2 p q) : S100000x128.Idx) = ix2 (node t p) q := by
  obtain ⟨-, -, -, -, -, -, -, -, -, -, e0, e1⟩ := where_at t
  refine funext fun a => Fin.ext ?_
  match a with
  | ⟨0, _⟩ => show win0_5.index t (0 : Fin 2) * 4000 + 1 * p.val = t.val * 4000 + p.val; rw [e0]; omega
  | ⟨1, _⟩ => show win0_5.index t (1 : Fin 2) * 128 + 1 * q.val = q.val; rw [e1]; omega

/-! ## What a point writes back -/

/-- For ANY five arrays under the input windows: the body's stored tile of their blocks at point `t`, cut to what is
    written back, is block `t` of the layer of the five arrays. -/
theorem tile_is_layer (A0 A1 : (⟨S100000x128, .f32⟩ : BufTy).Contents (Elt Ideal))
    (A2 A3 : (⟨S128x128, .f32⟩ : BufTy).Contents (Elt Ideal)) (A4 : (⟨S1x128, .f32⟩ : BufTy).Contents (Elt Ideal))
    (t : Fin cfg0.N) :
    (cfg0.win 5).cut (grid0.coords t)
        (out0_5 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (layer A0 A1 A2 A3 (fun q => A4 (ix2 (0 : Fin 1) q))) := by
  unfold out0_5
  rw [View.canon_unit_zero zero_offsets]
  simp only [View.ld_unit_zero (S := S4000x128) zero_offsets, View.ld_unit_zero (S := S128x128) zero_offsets,
    View.ld_unit_zero (S := S1x128) zero_offsets]
  funext j
  obtain ⟨p, q, rfl⟩ : ∃ (p : Fin 4000) (q : Fin 128), j = ix2 p q := ⟨j 0, j 1, eq_ix2 j⟩
  show k0_pay1 (F := Ideal) (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) (ix2 p q)
    = layer A0 A1 A2 A3 (fun q => A4 (ix2 (0 : Fin 1) q)) (((cfg0.win 5).blk t).view.emb (ix2 p q))
  refine (Tile.stored_apply _ _ _ _ _ p q).trans ?_
  rw [result_tile_at t p q, layer_apply]
  unfold layerAt
  exact congrArg (fun z => max z 0) (congrArg₂ (· + ·)
    (congrArg₂ (· + ·)
      (Finset.sum_congr rfl fun k _ => congrArg₂ (· * ·) (means_tile A0 t p k) (wl_block A2 t q k))
      (Finset.sum_congr rfl fun k _ => congrArg₂ (· * ·) (feats_tile A1 t p k) (wr_block A3 t q k)))
    (bias_block A4 t q))

/-- WHAT POINT `t` WRITES BACK is tile `t` of the layer of the arrays the region finds. -/
theorem flushed_eq (c : Dev nD) (t : Fin cfg0.N) :
    (dats m 0 c).flushed 5 t = ((cfg0.win 5).blk t).view.read (Elt Ideal) (found m c) := by
  rw [Cert.KernelIdeal.Value.flushed5]
  unfold iblk found
  exact tile_is_layer (V m c main_v22) (V m c main_arg0) (V m c main_arg2) (V m c main_arg3) (V m c main_v23) t

/-! ## The tiles cover the array -/

/-- An index of the result array is in point `t`'s block iff each coordinate is in the block's range on its axis. -/
theorem mem_tile (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v24).slice (win0_5.rect t)).set ↔ _
  rw [View.set_slice_whole, Rect.mem_set_unit]
  exact Iff.rfl

/-- Node `r` is in tile `r / 4000`: every index of the result array is in some point's block. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 4000 < cfg0.N := by show (i 0).val / 4000 < 25; omega
  obtain ⟨-, -, -, -, -, -, -, -, -, -, e0, e1⟩ := where_at ⟨(i 0).val / 4000, hlt⟩
  refine ⟨⟨(i 0).val / 4000, hlt⟩, flush0_5 _, ?_⟩
  rw [mem_tile]
  intro a
  match a with
  | ⟨0, _⟩ =>
    show win0_5.index ⟨(i 0).val / 4000, hlt⟩ (0 : Fin 2) * 4000 ≤ (i 0).val ∧ (i 0).val < win0_5.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_5.index ⟨(i 0).val / 4000, hlt⟩ (1 : Fin 2) * 128 ≤ (i 1).val ∧ (i 1).val < win0_5.index ⟨(i 0).val / 4000, hlt⟩ (1 : Fin 2) * 128 + 128
    rw [e1]
    omega

/-- THE RESULT ARRAY after the run is the layer of the arrays the region finds. -/
theorem final (c : Dev nD) : (dats m 0 c).arrAt 5 cfg0.N = found m c :=
  (dats m 0 c).arrAt_eq_of_cover 5 (found m c) (fun t _ => flushed_eq m c t) covered

/-! ## The arrays the region finds -/

/-- The layer of the arrays the region finds is the layer of the reference's array of means, the arguments as launched,
    and the bias vector. -/
theorem found_eq (c : Dev nD) :
    found m c = layer (Cert.ReferenceIdeal.Read.val_main_v22 (F := Ideal) (m ((c : Thread nD τ).loc main_arg0)) (m ((c : Thread nD τ).loc main_arg1)))
      (m ((c : Thread nD τ).loc main_arg0)) (m ((c : Thread nD τ).loc main_arg2)) (m ((c : Thread nD τ).loc main_arg3))
      (fun q => (m ((c : Thread nD τ).loc main_arg4) : S128.Idx → EReal) (ix1 q)) := by
  unfold found
  rw [Region.means_eq m c, V_main_arg0 m c, V_main_arg2 m c, V_main_arg3 m c]
  exact congrArg _ (funext fun q => Region.bias_apply m c q)

/-! ## The run, read -/

/-- Every weakly fair execution of the kernel's program terminates with the result array at the layer of the
    reference's array of means and the arguments, the arguments unchanged. -/
theorem run : θ_run defs (onTc (τ := τ) (main (F := Ideal))) ⟨m, fun _ => 0, ρ⟩ fun r => ∀ c : Dev nD,
      r.2.mem ((c : Thread nD τ).loc main_v24)
        = layer (Cert.ReferenceIdeal.Read.val_main_v22 (F := Ideal) (m ((c : Thread nD τ).loc main_arg0)) (m ((c : Thread nD τ).loc main_arg1)))
            (m ((c : Thread nD τ).loc main_arg0)) (m ((c : Thread nD τ).loc main_arg2)) (m ((c : Thread nD τ).loc main_arg3))
            (fun q => (m ((c : Thread nD τ).loc main_arg4) : S128.Idx → EReal) (ix1 q))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (found_eq m c)), (h c).2⟩)
    (Cert.KernelIdeal.Value.run_blocks m ρ)

end Cert.KernelIdeal.Layer

end
-- ==== Proof.lean ====
/-
  The certificate of one layer of mean-aggregating graph convolution with a rectifier: for every node `r` and output
  feature `q`

      out(r, q) = max ( Σ_k mean(r, k) · W_l(q, k)  +  Σ_k x(r, k) · W_r(q, k)  +  b(q) , 0 ),

  where `mean` is the array of neighbourhood means of the node features `x` along the edge list.

  Both programs make `mean` by the same host operations in the same order (a gather of the source nodes' rows, their
  scatter-addition into the target nodes, a scatter-addition of ones counting each node's incoming edges, the count
  raised to at least one, the quotient), so the two arrays of means are one term of the arguments.  From there the
  kernel works tile by tile of 4000 nodes over a grid of 25 points: each tile of means and of features, narrowed to bf16
  (no change at the ideal values), is multiplied by the transposed weight matrix into a zero accumulator, the two
  products and the bias row are added and the maximum with zero is stored; the reference forms the two whole matrix
  products, adds them and the bias laid along the rows, and applies the rectifier.  Index by index both are the function
  `Cert.Sage.layer` (SageSpec.lean): a product into a zero accumulator is the plain sum over the contracted axis, and a
  tile's row `p` at grid point `t` is node `4000·t + p`.  No law of arithmetic that fails at the infinities is used, so the
  precondition (finite inputs) is never opened.

  The modules: SageSpec (the function), RefLayer (the reference's result is it), KernelTile (the stored tile at an
  index), RegionArrays (the arrays the kernel's region finds), KernelLayer (from tiles to the whole result array, and the
  kernel's run).  The three frames are the generated ones (the reference's is its generated run with the result
  dropped); the idealization rewrote nothing, so `preserves` has no conjunct.
-/
import proofs.«161269_j88364657148502_1_alg».proof.Defs
import proofs.«161269_j88364657148502_1_alg».proof.Proof.Gen.Kernel
import proofs.«161269_j88364657148502_1_alg».proof.Proof.Gen.Kernel.Skeleton
import proofs.«161269_j88364657148502_1_alg».proof.Proof.Gen.Kernel.Launch
import proofs.«161269_j88364657148502_1_alg».proof.Proof.Gen.Kernel.Points
import proofs.«161269_j88364657148502_1_alg».proof.Proof.Gen.Kernel.Frame
import proofs.«161269_j88364657148502_1_alg».proof.Proof.Gen.KernelIdeal
import proofs.«161269_j88364657148502_1_alg».proof.Proof.Gen.KernelIdeal.Skeleton
import proofs.«161269_j88364657148502_1_alg».proof.Proof.Gen.KernelIdeal.Launch
import proofs.«161269_j88364657148502_1_alg».proof.Proof.Gen.KernelIdeal.Points
import proofs.«161269_j88364657148502_1_alg».proof.Proof.Gen.KernelIdeal.Frame
import proofs.«161269_j88364657148502_1_alg».proof.Proof.Gen.ReferenceIdeal
import proofs.«161269_j88364657148502_1_alg».proof.Proof.Gen.Pre_finite_inputs
import proofs.«161269_j88364657148502_1_alg».proof.Proof.Gen.KernelIdeal.Value
import proofs.«161269_j88364657148502_1_alg».proof.Proof.Gen.ReferenceIdeal.Run
import proofs.«161269_j88364657148502_1_alg».proof.Proof.Gen.ReferenceIdeal.Read
import proofs.«161269_j88364657148502_1_alg».proof.Proof.SageSpec
import proofs.«161269_j88364657148502_1_alg».proof.Proof.RefLayer
import proofs.«161269_j88364657148502_1_alg».proof.Proof.KernelTile
import proofs.«161269_j88364657148502_1_alg».proof.Proof.RegionArrays
import proofs.«161269_j88364657148502_1_alg».proof.Proof.KernelLayer
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer of the same array of means, the same
    features, weights and bias. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefLayer.result_eq_layer,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
